-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 83
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The two-layer graph convolution that both programs compute, stage by stage, as functions of the six inputs:
  node features x [100000, 128], the edge list e [2, 1600000] (row 0 the sources, row 1 the targets), two weight
  matrices [128, 128] and two bias vectors [128].

  With one self-loop added per node, src and dst are the 1,700,000 edge ends; deg counts, per node, the edges that
  arrive there; dinv is deg^(-1/2) where deg > 0 and 0 elsewhere; an edge's weight is dinv[src] * dinv[dst].
  One convolution of a feature array h sums, into each node, the weighted rows h[src] of the edges arriving there:
  agg e h. A layer is agg e (h * W) + b, the first followed by max(., 0); the result is the second layer of the first.
  A negative index is read as counted from the end (wrap), exactly as both programs do before they gather.

  The stages are spelt with the host operations themselves, so that a program's run — the composition of its
  operations — meets them by unfolding; nothing here is opened until two stages have to be compared entry by entry.
-/
import proofs.«156031_j73332271612105_1_alg».proof.Proof.Gen.ReferenceIdeal
import Idealize.ShloMosaic.Lib.ValueIdx

noncomputable section

namespace Cert.Gcn

open Cert.ReferenceIdeal Cert.ReferenceIdeal.Gen Idealize.ShloMosaic Idealize.ShloMosaic.TcCoe

variable {F : FTy → Type} [FloatOps F]

/-- The sources of the edges, then one self-loop per node: row 0 of the edge list followed by 0, 1, …, 99999. -/
def srcRaw (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the edges, then the self-loops: row 1 of the edge list followed by 0, 1, …, 99999. -/
def dstRaw (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A vector of 1,700,000 node numbers as an index column [1700000, 1]. -/
def idxCol (s : (⟨S1700000, .i32⟩ : BufTy).Contents (Elt F)) : (⟨S1700000x1, .i32⟩ : BufTy).Contents (Elt F) :=
  broadcastInDim S1700000x1 ![0] bcast_S1700000_S1700000x1_0 s

/-- A negative node number counts from the end: s + 100000 where s < 0, s elsewhere. -/
def wrap (s : (⟨S1700000, .i32⟩ : BufTy).Contents (Elt F)) : (⟨S1700000, .i32⟩ : BufTy).Contents (Elt F) :=
  select (cmpi .slt s (broadcastInDim S1700000 ![] bcast_S_S1700000 (constantI S_ 32 0#32))) (addi s (broadcastInDim S1700000 ![] bcast_S_S1700000 (constantI S_ 32 100000#32))) s

/-- deg[n]: the number of edges (self-loops included) whose target is n — ones summed into zeros by target. -/
def deg (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (idxCol (F := F) (dstRaw e)) (broadcastInDim S1700000 ![] bcast_S_S1700000 (constant S_ .f32 0x3F800000#32))

/-- dinv[n] = deg[n]^(-1/2) where deg[n] > 0, and 0 elsewhere. -/
def dinv (e : (⟨S2x1600000, .i32⟩ : BufTy).Contents (Elt F)) : (⟨S100000, .f32⟩ : BufTy).Contents (Elt F) :=
  select (cmpf (F := F) .ogt (deg e) (broadcastInDim S100000 ![] bcast_S_S100000 (constant S_ .f32 0x00000000#32))) (Host.rsqrt (deg e)) (broadcastInDim S100000 ![] bcast_S_S100000 (constant S_ .f32 0x00000000#32))

/-- The edges' weights dinv[src] * dinv[dst]. -/
def norm (e : (⟨S2x1600000, .i32⟩ : BufTy).Contents (Elt F)) : (⟨S1700000, .f32⟩ : BufTy).Contents (Elt F) :=
  mulf (Host.gather gather_S100000_S1700000x1_S1700000_n_0_n_n_0_1_1 (dinv e) (idxCol (F := F) (wrap (F := F) (srcRaw e)))) (Host.gather gather_S100000_S1700000x1_S1700000_n_0_n_n_0_1_1 (dinv e) (idxCol (F := F) (wrap (F := F) (dstRaw e))))

/-- The weights as a column [1700000, 1]. -/
def normCol (e : (⟨S2x1600000, .i32⟩ : BufTy).Contents (Elt F)) : (⟨S1700000x1, .f32⟩ : BufTy).Contents (Elt F) :=
  broadcastInDim S1700000x1 ![0] bcast_S1700000_S1700000x1_0 (norm e)

/-- One aggregation from the edge ends and the weight column as they stand: into node n, the sum over the edges e
    with dst[e] = n of w[e] * h[src[e], :]. -/
def aggOf (src dst : (⟨S1700000, .i32⟩ : BufTy).Contents (Elt F)) (w : (⟨S1700000x1, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (idxCol (F := F) dst)
    (mulf (Host.gather gather_S100000x128_S1700000x1_S1700000x128_1_0_n_n_0_1_1128 h (idxCol (F := F) (wrap (F := F) src))) (broadcastInDim S1700000x128 ![0, 1] bcast_S1700000x1_S1700000x128_0_1 w))

/-- The aggregation over the graph of the edge list e. -/
def agg (e : (⟨S2x1600000, .i32⟩ : BufTy).Contents (Elt F)) (h : (⟨S100000x128, .f32⟩ : BufTy).Contents (Elt F)) :
    (⟨S100000x128, .f32⟩ : BufTy).Contents (Elt F) :=
  aggOf (srcRaw e) (dstRaw e) (normCol e) h

/-- The dense transform h * W. -/
def dense (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

/-- A bias vector repeated down the 100,000 rows. -/
def biasRows (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- max(h, 0), entry by entry. -/
def relu (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-- The first layer: max(agg (x * W1) + b1, 0). -/
def hidden (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F)) :
    (⟨S100000x128, .f32⟩ : BufTy).Contents (Elt F) :=
  relu (addf (agg e (dense x w1)) (biasRows b1))

/-- The result: agg (hidden * W2) + b2. -/
def out (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S100000x128, .f32⟩ : BufTy).Contents (Elt F) :=
  addf (agg e (dense (hidden x e w1 b1) w2)) (biasRows b2)

end Cert.Gcn

end
-- ==== Proof.RefRun.lean ====
/-
  The reference program read as one sequence of host operations, and what its run leaves: every weakly fair
  execution terminates, the result array holding the second graph-convolution layer of the first —
  Cert.Gcn.out of the six inputs — and the inputs unchanged. The program is straight-line, so its run is the
  composition of its operations, and that composition is Cert.Gcn.out by unfolding the stages.
-/
import proofs.«156031_j73332271612105_1_alg».proof.Proof.Gen.ReferenceIdeal
import proofs.«156031_j73332271612105_1_alg».proof.Proof.Spec
import Idealize.ShloMosaic.Lib.StableHlo.Run

noncomputable section

namespace Cert.Gcn.Ref

open Cert.ReferenceIdeal Cert.ReferenceIdeal.Gen Idealize.ShloMosaic Idealize.ShloMosaic.TcCoe Idealize.SL.Sem Idealize.ShloMosaic.StableHlo

variable {F : FTy → Type} [FloatOps F]

/-- The reference's 83 host operations in program order; the two outlined functions (the masked reciprocal root and
    max(., 0)) stand where they are called. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
set_option maxHeartbeats 33200000 in
/-- On every device, from any memory with zero counters: every weakly fair execution of the reference terminates
    with its result at Cert.Gcn.out of the inputs, and the inputs unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = Cert.Gcn.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v64).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.Gcn.Ref

end
-- ==== Proof.KRun.lean ====
/-
  The kernel program's run with its result named. The program is four pipelined regions among stretches of host
  operations; the contents of every buffer at each boundary are a fold from the launch memory (a stretch applies
  its operations, a region leaves its arrays at what its write-backs hold), and at the return every buffer that
  outlives a region holds the last boundary's contents. Read at the result buffer this names the result array;
  read at the six inputs it gives them back unchanged.
-/
import proofs.«156031_j73332271612105_1_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel program terminates, nothing
    faulting; the result buffer ends at the last boundary's contents W9 and the six inputs end as launched. -/
theorem run_named : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.Gcn.KRun

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.Region0.lean ====
/-
  Region 0 of the kernel program: a row-blocked matrix product. The grid has 20 points; point t loads rows
  5000 t … 5000 t + 4999 of the left array and the whole right matrix, and stores their product (accumulated
  from zero) into the same rows of the output. Over the extended reals a narrowing of the float format changes
  nothing, and a block of rows times W is that block of rows of the whole product; the twenty blocks tile the
  output, so the output array ends holding the whole product, Cert.Gcn.dense, of the two arrays as the region
  found them.
-/
import proofs.«156031_j73332271612105_1_alg».proof.Proof.Gen.KernelIdeal.Frame
import proofs.«156031_j73332271612105_1_alg».proof.Proof.Spec
import proofs.«156031_j73332271612105_1_alg».proof.Proof.LibDotRows
import Idealize.ShloMosaic.Lib.Pipeline.Value
import Idealize.ShloMosaic.Lib.ValueIdx
import Idealize.ShloMosaic.PureOps.Ideal.Laws

set_option maxRecDepth 16384

noncomputable section

namespace Cert.Gcn.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry i of the whole product is the sum over k of x[i0, k] * w[k, i1]. -/
theorem dense_apply (x : FVec Ideal ⟨2, ![100000, 128]⟩ .f32) (w : FVec Ideal ⟨2, ![128, 128]⟩ .f32)
    (i : (⟨2, ![100000, 128]⟩ : Shape).Idx) :
    Cert.Gcn.dense (F := Ideal) x w i = ∑ k : Fin 128, x (ix2 (i 0) k) * w (ix2 k (i 1)) := by
  obtain ⟨p, q, rfl⟩ : ∃ (p : Fin 100000) (q : Fin 128), i = ix2 p q := ⟨i 0, i 1, eq_ix2 i⟩
  exact Cert.Lib.DotRows.dotGeneral_plain_apply (M := 100000) (K := 128) (N := 128) x w p q

/-- Entry y of the body's result is the sum over k of xb[y0, k] * wb[k, y1]: the product into the zero splat,
    the narrowing of both operands being the identity. -/
theorem pay_apply (xb : FVec Ideal ⟨2, ![5000, 128]⟩ .f32) (wb : FVec Ideal ⟨2, ![128, 128]⟩ .f32)
    (y : (⟨2, ![5000, 128]⟩ : Shape).Idx) :
    k0_pay1 (F := Ideal) xb wb y = ∑ k : Fin 128, xb (ix2 (y 0) k) * wb (ix2 k (y 1)) := by
  obtain ⟨p, q, rfl⟩ : ∃ (p : Fin 5000) (q : Fin 128), y = ix2 p q := ⟨y 0, y 1, eq_ix2 y⟩
  unfold k0_pay1
  exact Cert.Lib.DotRows.matmul_plain_apply (M := 5000) (K := 128) (N := 128) _ _ p q

/-- Entry y of the body's result on a block xb, wb is entry i of the whole product x * w, as soon as row y0 of xb is
    row i0 of x and column y1 of wb is column i1 of w. -/
theorem pay_rows (x : FVec Ideal ⟨2, ![100000, 128]⟩ .f32) (w : FVec Ideal ⟨2, ![128, 128]⟩ .f32)
    (xb : FVec Ideal ⟨2, ![5000, 128]⟩ .f32) (wb : FVec Ideal ⟨2, ![128, 128]⟩ .f32)
    (y : (⟨2, ![5000, 128]⟩ : Shape).Idx) (i : (⟨2, ![100000, 128]⟩ : Shape).Idx)
    (hx : ∀ k : Fin 128, xb (ix2 (y 0) k) = x (ix2 (i 0) k)) (hw : ∀ k : Fin 128, wb (ix2 k (y 1)) = w (ix2 k (i 1))) :
    k0_pay1 (F := Ideal) xb wb y = Cert.Gcn.dense (F := Ideal) x w i := by
  rw [pay_apply, dense_apply]
  exact Finset.sum_congr rfl fun k _ => by rw [hx k, hw k]

/-- The printed index maps over the grid: the left and the output window are at block row t, the right window
    and every column block at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two arrays as the region found them. -/
theorem flushed_eq (c : Dev nD) (t : Fin cfg0.N) :
    (dat0 V c).flushed 2 t = ((cfg0.win 2).blk t).view.read (Elt Ideal)
      (Cert.Gcn.dense (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  funext j
  show k0_pay1 (F := Ideal) (iblk0 V c 0 t) (iblk0 V c 1 t) j
    = Cert.Gcn.dense (F := Ideal) (V c main_arg0) (V c main_arg2) (((cfg0.win 2).blk t).view.emb j)
  have hj0 : (j 0).val < 5000 := (j 0).isLt
  have hj1 : (j 1).val < 128 := (j 1).isLt
  have h0 : ∀ k : Fin 128, ((cfg0.win 0).blk t).view.emb (ix2 (j 0) k) = ix2 ((((cfg0.win 2).blk t).view.emb j) 0) k := fun k => by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1)) = ix2 k ((((cfg0.win 2).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact pay_rows (V c main_arg0) (V c main_arg2) (iblk0 V c 0 t) (iblk0 V c 1 t) j (((cfg0.win 2).blk t).view.emb j)
    (fun k => congrArg (V c main_arg0) (h0 k)) (fun k => congrArg (V c main_arg2) (h1 k))

/-- An index of the output array is in point t's block iff its row is among rows 5000 t … 5000 t + 4999. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- The twenty row blocks cover the output array: row r lies in block r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e10, e11, e20, e21⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the whole product of the two arrays as the region found them. -/
theorem final (c : Dev nD) :
    (dat0 V c).arrAt 2 cfg0.N = Cert.Gcn.dense (F := Ideal) (V c main_arg0) (V c main_arg2) :=
  (dat0 V c).arrAt_eq_of_cover 2 _ (fun t _ => flushed_eq V c t) (cover)

end Cert.Gcn.Region0

end
-- ==== Proof.Region2.lean ====
/-
  Region 2 of the kernel program: a row-blocked matrix product. The grid has 20 points; point t loads rows
  5000 t … 5000 t + 4999 of the left array and the whole right matrix, and stores their product (accumulated
  from zero) into the same rows of the output. Over the extended reals a narrowing of the float format changes
  nothing, and a block of rows times W is that block of rows of the whole product; the twenty blocks tile the
  output, so the output array ends holding the whole product, Cert.Gcn.dense, of the two arrays as the region
  found them.
-/
import proofs.«156031_j73332271612105_1_alg».proof.Proof.Gen.KernelIdeal.Frame
import proofs.«156031_j73332271612105_1_alg».proof.Proof.Spec
import proofs.«156031_j73332271612105_1_alg».proof.Proof.LibDotRows
import Idealize.ShloMosaic.Lib.Pipeline.Value
import Idealize.ShloMosaic.Lib.ValueIdx
import Idealize.ShloMosaic.PureOps.Ideal.Laws

set_option maxRecDepth 16384

noncomputable section

namespace Cert.Gcn.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry i of the whole product is the sum over k of x[i0, k] * w[k, i1]. -/
theorem dense_apply (x : FVec Ideal ⟨2, ![100000, 128]⟩ .f32) (w : FVec Ideal ⟨2, ![128, 128]⟩ .f32)
    (i : (⟨2, ![100000, 128]⟩ : Shape).Idx) :
    Cert.Gcn.dense (F := Ideal) x w i = ∑ k : Fin 128, x (ix2 (i 0) k) * w (ix2 k (i 1)) := by
  obtain ⟨p, q, rfl⟩ : ∃ (p : Fin 100000) (q : Fin 128), i = ix2 p q := ⟨i 0, i 1, eq_ix2 i⟩
  exact Cert.Lib.DotRows.dotGeneral_plain_apply (M := 100000) (K := 128) (N := 128) x w p q

/-- Entry y of the body's result is the sum over k of xb[y0, k] * wb[k, y1]: the product into the zero splat,
    the narrowing of both operands being the identity. -/
theorem pay_apply (xb : FVec Ideal ⟨2, ![5000, 128]⟩ .f32) (wb : FVec Ideal ⟨2, ![128, 128]⟩ .f32)
    (y : (⟨2, ![5000, 128]⟩ : Shape).Idx) :
    k2_pay1 (F := Ideal) xb wb y = ∑ k : Fin 128, xb (ix2 (y 0) k) * wb (ix2 k (y 1)) := by
  obtain ⟨p, q, rfl⟩ : ∃ (p : Fin 5000) (q : Fin 128), y = ix2 p q := ⟨y 0, y 1, eq_ix2 y⟩
  unfold k2_pay1
  simp only [shapeCast_self]
  exact Cert.Lib.DotRows.matmul_plain_apply (M := 5000) (K := 128) (N := 128) _ _ p q

/-- Entry y of the body's result on a block xb, wb is entry i of the whole product x * w, as soon as row y0 of xb is
    row i0 of x and column y1 of wb is column i1 of w. -/
theorem pay_rows (x : FVec Ideal ⟨2, ![100000, 128]⟩ .f32) (w : FVec Ideal ⟨2, ![128, 128]⟩ .f32)
    (xb : FVec Ideal ⟨2, ![5000, 128]⟩ .f32) (wb : FVec Ideal ⟨2, ![128, 128]⟩ .f32)
    (y : (⟨2, ![5000, 128]⟩ : Shape).Idx) (i : (⟨2, ![100000, 128]⟩ : Shape).Idx)
    (hx : ∀ k : Fin 128, xb (ix2 (y 0) k) = x (ix2 (i 0) k)) (hw : ∀ k : Fin 128, wb (ix2 k (y 1)) = w (ix2 k (i 1))) :
    k2_pay1 (F := Ideal) xb wb y = Cert.Gcn.dense (F := Ideal) x w i := by
  rw [pay_apply, dense_apply]
  exact Finset.sum_congr rfl fun k _ => by rw [hx k, hw k]

/-- The printed index maps over the grid: the left and the output window are at block row t, the right window
    and every column block at 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the two arrays as the region found them. -/
theorem flushed_eq (c : Dev nD) (t : Fin cfg2.N) :
    (dat2 V c).flushed 2 t = ((cfg2.win 2).blk t).view.read (Elt Ideal)
      (Cert.Gcn.dense (F := Ideal) (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e00, e01, e10, e11, e20, e21⟩ := idx_facts t
  funext j
  show k2_pay1 (F := Ideal) (iblk2 V c 0 t) (iblk2 V c 1 t) j
    = Cert.Gcn.dense (F := Ideal) (V c main_v45) (V c main_arg4) (((cfg2.win 2).blk t).view.emb j)
  have hj0 : (j 0).val < 5000 := (j 0).isLt
  have hj1 : (j 1).val < 128 := (j 1).isLt
  have h0 : ∀ k : Fin 128, ((cfg2.win 0).blk t).view.emb (ix2 (j 0) k) = ix2 ((((cfg2.win 2).blk t).view.emb j) 0) k := fun k => by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ∀ k : Fin 128, ((cfg2.win 1).blk t).view.emb (ix2 k (j 1)) = ix2 k ((((cfg2.win 2).blk t).view.emb j) 1) := fun k => by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  exact pay_rows (V c main_v45) (V c main_arg4) (iblk2 V c 0 t) (iblk2 V c 1 t) j (((cfg2.win 2).blk t).view.emb j)
    (fun k => congrArg (V c main_v45) (h0 k)) (fun k => congrArg (V c main_arg4) (h1 k))

/-- An index of the output array is in point t's block iff its row is among rows 5000 t … 5000 t + 4999. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- The twenty row blocks cover the output array: row r lies in block r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e00, e01, e10, e11, e20, e21⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the whole product of the two arrays as the region found them. -/
theorem final (c : Dev nD) :
    (dat2 V c).arrAt 2 cfg2.N = Cert.Gcn.dense (F := Ideal) (V c main_v45) (V c main_arg4) :=
  (dat2 V c).arrAt_eq_of_cover 2 _ (fun t _ => flushed_eq V c t) (cover)

end Cert.Gcn.Region2

end
-- ==== Proof.RegionBias.lean ====
/-
  Regions 1 and 3 of the kernel program: the bias epilogues. Each has 20 grid points; point t loads rows
  5000 t … 5000 t + 4999 of a feature array X and the whole bias row B [1, 128], and stores X + B (the row repeated
  down the block), region 1 followed by max(., 0), into the same rows of the output. The operation is entry by
  entry and the twenty blocks tile the output, so the output array ends holding X + rows B (region 3) or
  max(X + rows B, 0) (region 1) of the arrays as the region found them, rows B being B repeated down all 100,000
  rows. A bias vector [128] viewed as a row [1, 128] by a reshape or by a broadcast along a new leading axis is the
  same row.
-/
import proofs.«156031_j73332271612105_1_alg».proof.Proof.Gen.KernelIdeal.Frame
import proofs.«156031_j73332271612105_1_alg».proof.Proof.Spec
import Idealize.ShloMosaic.Lib.Pipeline.Value
import Idealize.ShloMosaic.Lib.ValueIdx
import Idealize.ShloMosaic.Lib.ValueLayout

set_option maxRecDepth 16384

noncomputable section

namespace Cert.Gcn

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- A row [1, 128] repeated down the 100,000 rows. -/
def rowsOf {F : FTy → Type} [FloatOps F] (B : FVec F ⟨2, ![1, 128]⟩ .f32) : FVec F ⟨2, ![100000, 128]⟩ .f32 :=
  broadcastInDim ⟨2, ![100000, 128]⟩ ![0, 1] Cert.ReferenceIdeal.Gen.bcast_S1x128_S100000x128_0_1 B

/-- Entry i of the repeated row is B[0, i1]. -/
theorem rowsOf_apply {F : FTy → Type} [FloatOps F] (B : FVec F ⟨2, ![1, 128]⟩ .f32) (i : (⟨2, ![100000, 128]⟩ : Shape).Idx) :
    rowsOf (F := F) B i = B (ix2 0 (i 1)) :=
  broadcastInDim_apply _ _ B i (ix2 0 (i 1)) (fun a => by
    match a with
    | ⟨0, _⟩ => rfl
    | ⟨1, _⟩ => rfl)

/-- X + rows B. -/
def addRows (X : FVec Ideal ⟨2, ![100000, 128]⟩ .f32) (B : FVec Ideal ⟨2, ![1, 128]⟩ .f32) : FVec Ideal ⟨2, ![100000, 128]⟩ .f32 :=
  addf X (rowsOf (F := Ideal) B)

/-- max(X + rows B, 0). -/
def reluRows (X : FVec Ideal ⟨2, ![100000, 128]⟩ .f32) (B : FVec Ideal ⟨2, ![1, 128]⟩ .f32) : FVec Ideal ⟨2, ![100000, 128]⟩ .f32 :=
  Cert.Gcn.relu (F := Ideal) (addRows X B)

/-- A bias vector repeated down the rows is its row [1, 128] repeated down the rows. -/
theorem biasRows_eq (b : FVec Ideal ⟨1, ![128]⟩ .f32) :
    biasRows (F := Ideal) b = rowsOf (F := Ideal) (broadcastInDim ⟨2, ![1, 128]⟩ ![1] Cert.ReferenceIdeal.Gen.bcast_S128_S1x128_1 b) := rfl

/-- A vector [128] reshaped to a row [1, 128] is the vector broadcast along a new leading axis: both read b[i1]. -/
theorem reshape_row_eq {F : FTy → Type} [FloatOps F] (b : FVec F ⟨1, ![128]⟩ .f32) (h : (⟨1, ![128]⟩ : Shape).ShapeCasts ⟨2, ![1, 128]⟩)
    (h' : (⟨1, ![128]⟩ : Shape).BroadcastsInDim ⟨2, ![1, 128]⟩ ![1]) :
    shapeCast ⟨2, ![1, 128]⟩ b h = broadcastInDim ⟨2, ![1, 128]⟩ ![1] h' b := by
  funext i
  rw [broadcastInDim_apply ![1] h' b i (ix1 (i 1)) (fun a => by match a with | ⟨0, _⟩ => rfl)]
  exact (shapeCast_addUnit_apply ![128] b h i).trans (congrArg b (funext fun a => by match a with | ⟨0, _⟩ => rfl))

/-- Entry i of max(X + rows B, 0). -/
theorem relu_rows_apply (X : FVec Ideal ⟨2, ![100000, 128]⟩ .f32) (B : FVec Ideal ⟨2, ![1, 128]⟩ .f32)
    (i : (⟨2, ![100000, 128]⟩ : Shape).Idx) :
    reluRows X B i = max (X i + B (ix2 0 (i 1))) (Ideal.ofBits .f32 0x00000000#32) := by
  unfold reluRows addRows Cert.Gcn.relu
  rw [maximumf_apply, addf_apply, rowsOf_apply]
  rfl

/-- Entry i of X + rows B. -/
theorem add_rows_apply (X : FVec Ideal ⟨2, ![100000, 128]⟩ .f32) (B : FVec Ideal ⟨2, ![1, 128]⟩ .f32)
    (i : (⟨2, ![100000, 128]⟩ : Shape).Idx) :
    addRows X B i = X i + B (ix2 0 (i 1)) := by
  unfold addRows
  rw [addf_apply, rowsOf_apply]

namespace Region1

variable (V : (c : Dev nD) → (b : Ref sig .tc) → Buf (Elt Ideal) ((c : Thread nD τ).loc b))

/-- Entry y of the body's result: max(xb[y] + bb[0, y1], 0) — the bias row [1, 128] repeated down the block's rows. -/
theorem pay_apply (xb : FVec Ideal ⟨2, ![5000, 128]⟩ .f32) (bb : FVec Ideal ⟨2, ![1, 128]⟩ .f32)
    (y : (⟨2, ![5000, 128]⟩ : Shape).Idx) :
    k1_pay1 (F := Ideal) xb bb y = max (xb y + bb (ix2 0 (y 1))) (Ideal.ofBits .f32 0x00000000#32) := by
  unfold k1_pay1
  simp only [shapeCast_self]
  rw [maximumf_apply, addf_apply, broadcastTo_apply bb _ y (ix2 0 (y 1)) (fun a => by
    match a with
    | ⟨0, _⟩ => rfl
    | ⟨1, _⟩ => rfl)]
  rfl

/-- Entry y of the body's result on a block xb and the row bb is entry i of the whole-array function, as soon as
    xb[y] is X[i] and bb[0, y1] is B[0, i1]. -/
theorem pay_rows (X : FVec Ideal ⟨2, ![100000, 128]⟩ .f32) (B : FVec Ideal ⟨2, ![1, 128]⟩ .f32)
    (xb : FVec Ideal ⟨2, ![5000, 128]⟩ .f32) (bb : FVec Ideal ⟨2, ![1, 128]⟩ .f32)
    (y : (⟨2, ![5000, 128]⟩ : Shape).Idx) (i : (⟨2, ![100000, 128]⟩ : Shape).Idx)
    (hx : xb y = X i) (hb : bb (ix2 0 (y 1)) = B (ix2 0 (i 1))) :
    k1_pay1 (F := Ideal) xb bb y = reluRows X B i := by
  rw [pay_apply, relu_rows_apply, hx, hb]

/-- The printed index maps over the grid: the feature and the output window are at block row t, the bias window
    and every column block at 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of max(X + rows B, 0) of the two arrays as the region found them. -/
theorem flushed_eq (c : Dev nD) (t : Fin cfg1.N) :
    (dat1 V c).flushed 2 t = ((cfg1.win 2).blk t).view.read (Elt Ideal)
      (reluRows (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21⟩ := idx_facts t
  funext j
  show k1_pay1 (F := Ideal) (iblk1 V c 0 t) (iblk1 V c 1 t) j
    = reluRows (V c main_v43) (V c main_v44) (((cfg1.win 2).blk t).view.emb j)
  have hj0 : (j 0).val < 5000 := (j 0).isLt
  have hj1 : (j 1).val < 128 := (j 1).isLt
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 0 (j 1)) = ix2 0 ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  exact pay_rows (V c main_v43) (V c main_v44) (iblk1 V c 0 t) (iblk1 V c 1 t) j (((cfg1.win 2).blk t).view.emb j)
    (congrArg (V c main_v43) h0) (congrArg (V c main_v44) h1)

/-- An index of the output array is in point t's block iff its row is among rows 5000 t … 5000 t + 4999. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The twenty row blocks cover the output array: row r lies in block r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e00, e01, e10, e11, e20, e21⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: max(X + rows B, 0) of the two arrays as the region found them. -/
theorem final (c : Dev nD) :
    (dat1 V c).arrAt 2 cfg1.N = reluRows (V c main_v43) (V c main_v44) :=
  (dat1 V c).arrAt_eq_of_cover 2 _ (fun t _ => flushed_eq V c t) (cover)

end Region1

namespace Region3

variable (V : (c : Dev nD) → (b : Ref sig .tc) → Buf (Elt Ideal) ((c : Thread nD τ).loc b))

/-- Entry y of the body's result: xb[y] + bb[0, y1] — the bias row [1, 128] repeated down the block's rows. -/
theorem pay_apply (xb : FVec Ideal ⟨2, ![5000, 128]⟩ .f32) (bb : FVec Ideal ⟨2, ![1, 128]⟩ .f32)
    (y : (⟨2, ![5000, 128]⟩ : Shape).Idx) :
    k3_pay1 (F := Ideal) xb bb y = xb y + bb (ix2 0 (y 1)) := by
  unfold k3_pay1
  simp only [shapeCast_self]
  rw [addf_apply, broadcastTo_apply bb _ y (ix2 0 (y 1)) (fun a => by
    match a with
    | ⟨0, _⟩ => rfl
    | ⟨1, _⟩ => rfl)]

/-- Entry y of the body's result on a block xb and the row bb is entry i of the whole-array function, as soon as
    xb[y] is X[i] and bb[0, y1] is B[0, i1]. -/
theorem pay_rows (X : FVec Ideal ⟨2, ![100000, 128]⟩ .f32) (B : FVec Ideal ⟨2, ![1, 128]⟩ .f32)
    (xb : FVec Ideal ⟨2, ![5000, 128]⟩ .f32) (bb : FVec Ideal ⟨2, ![1, 128]⟩ .f32)
    (y : (⟨2, ![5000, 128]⟩ : Shape).Idx) (i : (⟨2, ![100000, 128]⟩ : Shape).Idx)
    (hx : xb y = X i) (hb : bb (ix2 0 (y 1)) = B (ix2 0 (i 1))) :
    k3_pay1 (F := Ideal) xb bb y = addRows X B i := by
  rw [pay_apply, add_rows_apply, hx, hb]

/-- The printed index maps over the grid: the feature and the output window are at block row t, the bias window
    and every column block at 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of X + rows B of the two arrays as the region found them. -/
theorem flushed_eq (c : Dev nD) (t : Fin cfg3.N) :
    (dat3 V c).flushed 2 t = ((cfg3.win 2).blk t).view.read (Elt Ideal)
      ((addRows (V c main_v58) (V c main_v59))) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e00, e01, e10, e11, e20, e21⟩ := idx_facts t
  funext j
  show k3_pay1 (F := Ideal) (iblk3 V c 0 t) (iblk3 V c 1 t) j
    = (addRows (V c main_v58) (V c main_v59)) (((cfg3.win 2).blk t).view.emb j)
  have hj0 : (j 0).val < 5000 := (j 0).isLt
  have hj1 : (j 1).val < 128 := (j 1).isLt
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 0 (j 1)) = ix2 0 ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  exact pay_rows (V c main_v58) (V c main_v59) (iblk3 V c 0 t) (iblk3 V c 1 t) j (((cfg3.win 2).blk t).view.emb j)
    (congrArg (V c main_v58) h0) (congrArg (V c main_v59) h1)

/-- An index of the output array is in point t's block iff its row is among rows 5000 t … 5000 t + 4999. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v60).slice (win3_2.rect t)).set ↔ _
  rw [View.set_slice_whole, Rect.mem_set_unit]
  exact Iff.rfl

/-- The twenty row blocks cover the output array: row r lies in block r / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨e00, e01, e10, e11, e20, e21⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: X + rows B of the two arrays as the region found them. -/
theorem final (c : Dev nD) :
    (dat3 V c).arrAt 2 cfg3.N = (addRows (V c main_v58) (V c main_v59)) :=
  (dat3 V c).arrAt_eq_of_cover 2 _ (fun t _ => flushed_eq V c t) (cover)

end Region3

end Cert.Gcn

end
-- ==== Proof.Fold.lean ====
/-
  The kernel program's result read back through its run. The contents of the buffers at the nine boundaries of
  the program (W0 at the launch … W9 at the return) are a fold: a stretch of host operations applies them, a
  region leaves its output array at what its blocks wrote and every other buffer as it found it. Walking back from
  the result buffer at W9:
    result  = (second aggregation) + rows of b2              region 3, over the stretch before it;
    second aggregation = agg e (hidden * W2)                  the host's gather / scale / scatter-add over region 2's product;
    hidden  = max(first aggregation + rows of b1, 0)          region 1;
    first aggregation = agg e (x * W1)                        the host's operations over region 0's product;
  the edge ends and the edge weights are computed once, before region 0, from the edge list alone, and no later
  operation or region writes them; no operation or region writes an input. Hence the result is Cert.Gcn.out of the
  six inputs.
-/
import proofs.«156031_j73332271612105_1_alg».proof.Proof.Gen.KernelIdeal.Frame
import proofs.«156031_j73332271612105_1_alg».proof.Proof.Spec
import proofs.«156031_j73332271612105_1_alg».proof.Proof.Region0
import proofs.«156031_j73332271612105_1_alg».proof.Proof.Region2
import proofs.«156031_j73332271612105_1_alg».proof.Proof.RegionBias
import Idealize.ShloMosaic.Lib.StableHlo.Run

set_option maxRecDepth 16384

noncomputable section

namespace Cert.Gcn.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of the named stretch writes the buffer in question, so the stretch leaves it as it was. -/
macro "keeps_through " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The inputs reach the regions as launched -/

/-- The features at region 0's entry are the launch's. -/
theorem W3_arg0 : W3 m ρ c (Proc.devRef .tc main_arg0) = W0 m ρ c (Proc.devRef .tc main_arg0) :=
  calc W3 m ρ c (Proc.devRef .tc main_arg0)
    _ = W2 m ρ c (Proc.devRef .tc main_arg0) := by keeps_through hostOps0_2
    _ = W1 m ρ c (Proc.devRef .tc main_arg0) := by keeps_through hostOps0_1
    _ = W0 m ρ c (Proc.devRef .tc main_arg0) := by keeps_through hostOps0

/-- The first weight matrix at region 0's entry is the launch's. -/
theorem W3_arg2 : W3 m ρ c (Proc.devRef .tc main_arg2) = W0 m ρ c (Proc.devRef .tc main_arg2) :=
  calc W3 m ρ c (Proc.devRef .tc main_arg2)
    _ = W2 m ρ c (Proc.devRef .tc main_arg2) := by keeps_through hostOps0_2
    _ = W1 m ρ c (Proc.devRef .tc main_arg2) := by keeps_through hostOps0_1
    _ = W0 m ρ c (Proc.devRef .tc main_arg2) := by keeps_through hostOps0

/-- The first bias at region 0's exit is the launch's. -/
theorem W4_arg3 : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by keeps_through hostOps0_2
    _ = W1 m ρ c (Proc.devRef .tc main_arg3) := by keeps_through hostOps0_1
    _ = W0 m ρ c (Proc.devRef .tc main_arg3) := by keeps_through hostOps0

/-- The second weight matrix at region 2's entry is the launch's. -/
theorem W6_arg4 : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by keeps_through hostOps1
    _ = W3 m ρ c (Proc.devRef .tc main_arg4) := W4_of_ne m ρ c main_arg4 (by decide)
    _ = W2 m ρ c (Proc.devRef .tc main_arg4) := by keeps_through hostOps0_2
    _ = W1 m ρ c (Proc.devRef .tc main_arg4) := by keeps_through hostOps0_1
    _ = W0 m ρ c (Proc.devRef .tc main_arg4) := by keeps_through hostOps0

/-- The second bias at region 2's exit is the launch's. -/
theorem W7_arg5 : W7 m ρ c (Proc.devRef .tc main_arg5) = W0 m ρ c (Proc.devRef .tc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by keeps_through hostOps1
    _ = W3 m ρ c (Proc.devRef .tc main_arg5) := W4_of_ne m ρ c main_arg5 (by decide)
    _ = W2 m ρ c (Proc.devRef .tc main_arg5) := by keeps_through hostOps0_2
    _ = W1 m ρ c (Proc.devRef .tc main_arg5) := by keeps_through hostOps0_1
    _ = W0 m ρ c (Proc.devRef .tc main_arg5) := by keeps_through hostOps0

/-! ## The edge ends and the edge weights: computed before region 0, kept to the end -/

/-- The sources (self-loops appended) as the first three stretches leave them. -/
theorem W3_v3 : W3 m ρ c (Proc.devRef .tc main_v3) = Cert.Gcn.srcRaw (F := Ideal) (m ((c : Thread nD τ).loc main_arg1)) := by
  show StableHlo.after hostOps0_2 (StableHlo.after hostOps0_1 (StableHlo.after hostOps0 (W0 m ρ c))) (Proc.devRef .tc main_v3) = _
  after_results_simp <;> rfl

/-- The targets (self-loops appended) as the first three stretches leave them. -/
theorem W3_v6 : W3 m ρ c (Proc.devRef .tc main_v6) = Cert.Gcn.dstRaw (F := Ideal) (m ((c : Thread nD τ).loc main_arg1)) := by
  show StableHlo.after hostOps0_2 (StableHlo.after hostOps0_1 (StableHlo.after hostOps0 (W0 m ρ c))) (Proc.devRef .tc main_v6) = _
  after_results_simp <;> rfl

/-- The weight column from a reciprocal-root vector and the edge ends as they stand: di[src] * di[dst], as a column. -/
def normOf (di : (⟨Cert.ReferenceIdeal.S100000, .f32⟩ : BufTy).Contents (Elt Ideal)) (src dst : (⟨Cert.ReferenceIdeal.S1700000, .i32⟩ : BufTy).Contents (Elt Ideal)) :
    (⟨Cert.ReferenceIdeal.S1700000x1, .f32⟩ : BufTy).Contents (Elt Ideal) :=
  broadcastInDim Cert.ReferenceIdeal.S1700000x1 ![0] Cert.ReferenceIdeal.Gen.bcast_S1700000_S1700000x1_0
    (mulf (F := Ideal) (s := Cert.ReferenceIdeal.S1700000) (φ := .f32) (Host.gather Cert.ReferenceIdeal.gather_S100000_S1700000x1_S1700000_n_0_n_n_0_1_1 di (Cert.Gcn.idxCol (F := Ideal) (Cert.Gcn.wrap (F := Ideal) src)))
      (Host.gather Cert.ReferenceIdeal.gather_S100000_S1700000x1_S1700000_n_0_n_n_0_1_1 di (Cert.Gcn.idxCol (F := Ideal) (Cert.Gcn.wrap (F := Ideal) dst))))

/-- The first stretch, from any contents: the test deg > 0 … -/
theorem stretch0_v12 (W : Valuation τ sig (Elt Ideal)) : StableHlo.after hostOps0 W (Proc.devRef .tc main_v12)
    = cmpf (F := Ideal) .ogt (Cert.Gcn.deg (F := Ideal) (W (Proc.devRef .tc main_arg1)))
        (broadcastInDim Cert.ReferenceIdeal.S100000 ![] Cert.ReferenceIdeal.Gen.bcast_S_S100000 (constant (F := Ideal) Cert.ReferenceIdeal.S_ .f32 0x00000000#32)) := by
  after_results_simp <;> rfl

/-- … the reciprocal root of deg … -/
theorem stretch0_v13 (W : Valuation τ sig (Elt Ideal)) : StableHlo.after hostOps0 W (Proc.devRef .tc main_v13)
    = Host.rsqrt (F := Ideal) (s := Cert.ReferenceIdeal.S100000) (φ := .f32) (Cert.Gcn.deg (F := Ideal) (W (Proc.devRef .tc main_arg1))) := by
  after_results_simp <;> rfl

/-- … the zero it is masked with … -/
theorem stretch0_cst2 (W : Valuation τ sig (Elt Ideal)) : StableHlo.after hostOps0 W (Proc.devRef .tc main_cst_2)
    = constant (F := Ideal) Cert.ReferenceIdeal.S_ .f32 0x00000000#32 := by
  after_results_simp <;> rfl

/-- … and the edge ends. -/
theorem stretch0_v3 (W : Valuation τ sig (Elt Ideal)) : StableHlo.after hostOps0 W (Proc.devRef .tc main_v3)
    = Cert.Gcn.srcRaw (F := Ideal) (W (Proc.devRef .tc main_arg1)) := by
  after_results_simp <;> rfl
theorem stretch0_v6 (W : Valuation τ sig (Elt Ideal)) : StableHlo.after hostOps0 W (Proc.devRef .tc main_v6)
    = Cert.Gcn.dstRaw (F := Ideal) (W (Proc.devRef .tc main_arg1)) := by
  after_results_simp <;> rfl

/-- The second stretch (the masked choice), from any contents. -/
theorem stretch01_v14 (W : Valuation τ sig (Elt Ideal)) : StableHlo.after hostOps0_1 W (Proc.devRef .tc main_v14)
    = select (W (Proc.devRef .tc main_v12)) (W (Proc.devRef .tc main_v13))
        (broadcastInDim Cert.ReferenceIdeal.S100000 ![] Cert.ReferenceIdeal.Gen.bcast_S_S100000 (W (Proc.devRef .tc main_cst_2))) := by
  after_results_simp <;> rfl

/-- The third stretch, from any contents: the weight column of what it finds. -/
theorem stretch02_v30 (W : Valuation τ sig (Elt Ideal)) : StableHlo.after hostOps0_2 W (Proc.devRef .tc main_v30)
    = normOf (W (Proc.devRef .tc main_v14)) (W (Proc.devRef .tc main_v3)) (W (Proc.devRef .tc main_v6)) := by
  after_results_simp <;> rfl

/-- The masked choice does not write the sources. -/
theorem W2_v3 : W2 m ρ c (Proc.devRef .tc main_v3) = W1 m ρ c (Proc.devRef .tc main_v3) :=
  calc W2 m ρ c (Proc.devRef .tc main_v3)
    _ = W1 m ρ c (Proc.devRef .tc main_v3) := by keeps_through hostOps0_1

/-- The masked choice does not write the targets. -/
theorem W2_v6 : W2 m ρ c (Proc.devRef .tc main_v6) = W1 m ρ c (Proc.devRef .tc main_v6) :=
  calc W2 m ρ c (Proc.devRef .tc main_v6)
    _ = W1 m ρ c (Proc.devRef .tc main_v6) := by keeps_through hostOps0_1

/-- The weight column dinv[src] * dinv[dst] as the first three stretches leave it. -/
theorem W3_v30 : W3 m ρ c (Proc.devRef .tc main_v30) = Cert.Gcn.normCol (F := Ideal) (m ((c : Thread nD τ).loc main_arg1)) := by
  have h30 : W3 m ρ c (Proc.devRef .tc main_v30)
      = normOf (W2 m ρ c (Proc.devRef .tc main_v14)) (W2 m ρ c (Proc.devRef .tc main_v3)) (W2 m ρ c (Proc.devRef .tc main_v6)) :=
    stretch02_v30 (W2 m ρ c)
  have h14 : W2 m ρ c (Proc.devRef .tc main_v14)
      = select (W1 m ρ c (Proc.devRef .tc main_v12)) (W1 m ρ c (Proc.devRef .tc main_v13))
          (broadcastInDim Cert.ReferenceIdeal.S100000 ![] Cert.ReferenceIdeal.Gen.bcast_S_S100000 (W1 m ρ c (Proc.devRef .tc main_cst_2))) :=
    stretch01_v14 (W1 m ρ c)
  have h12 := stretch0_v12 (W0 m ρ c)
  have h13 := stretch0_v13 (W0 m ρ c)
  have hc2 := stretch0_cst2 (W0 m ρ c)
  have h3 := stretch0_v3 (W0 m ρ c)
  have h6 := stretch0_v6 (W0 m ρ c)
  rw [h30, h14, W2_v3, W2_v6]
  show normOf (select (StableHlo.after hostOps0 (W0 m ρ c) (Proc.devRef .tc main_v12)) (StableHlo.after hostOps0 (W0 m ρ c) (Proc.devRef .tc main_v13))
      (broadcastInDim Cert.ReferenceIdeal.S100000 ![] Cert.ReferenceIdeal.Gen.bcast_S_S100000 (StableHlo.after hostOps0 (W0 m ρ c) (Proc.devRef .tc main_cst_2))))
      (StableHlo.after hostOps0 (W0 m ρ c) (Proc.devRef .tc main_v3)) (StableHlo.after hostOps0 (W0 m ρ c) (Proc.devRef .tc main_v6)) = _
  rw [h12, h13, hc2, h3, h6]
  rfl

/-- Region 0 does not write the sources. -/
theorem W4_v3 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- Region 0 does not write the targets. -/
theorem W4_v6 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- Region 0 does not write the weight column. -/
theorem W4_v30 : W4 m ρ c (Proc.devRef .tc main_v30) = W3 m ρ c (Proc.devRef .tc main_v30) :=
  calc W4 m ρ c (Proc.devRef .tc main_v30)
    _ = W3 m ρ c (Proc.devRef .tc main_v30) := W4_of_ne m ρ c main_v30 (by decide)

/-- Nothing up to region 2's exit writes the sources. -/
theorem W7_v3 : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by keeps_through hostOps1
    _ = W3 m ρ c (Proc.devRef .tc main_v3) := W4_of_ne m ρ c main_v3 (by decide)

/-- Nothing up to region 2's exit writes the targets. -/
theorem W7_v6 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by keeps_through hostOps1
    _ = W3 m ρ c (Proc.devRef .tc main_v6) := W4_of_ne m ρ c main_v6 (by decide)

/-- Nothing up to region 2's exit writes the weight column. -/
theorem W7_v30 : W7 m ρ c (Proc.devRef .tc main_v30) = W3 m ρ c (Proc.devRef .tc main_v30) :=
  calc W7 m ρ c (Proc.devRef .tc main_v30)
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := by keeps_through hostOps1
    _ = W3 m ρ c (Proc.devRef .tc main_v30) := W4_of_ne m ρ c main_v30 (by decide)

/-! ## Layer 1 -/

/-- Region 0 leaves x * W1. -/
theorem W4_v31 : W4 m ρ c (Proc.devRef .tc main_v31)
    = Cert.Gcn.dense (F := Ideal) (m ((c : Thread nD τ).loc main_arg0)) (m ((c : Thread nD τ).loc main_arg2)) := by
  have h := (W4_arr m ρ c 2).trans (Cert.Gcn.Region0.final (V3 m ρ) c)
  rw [show V3 m ρ c main_arg0 = m ((c : Thread nD τ).loc main_arg0) from W3_arg0 m ρ c,
    show V3 m ρ c main_arg2 = m ((c : Thread nD τ).loc main_arg2) from W3_arg2 m ρ c] at h
  exact h

/-- The stretch after region 0 aggregates whatever region 0's output holds over the edges as they stand. -/
theorem W5_v43_of : W5 m ρ c (Proc.devRef .tc main_v43)
    = Cert.Gcn.aggOf (F := Ideal) (W4 m ρ c (Proc.devRef .tc main_v3)) (W4 m ρ c (Proc.devRef .tc main_v6))
        (W4 m ρ c (Proc.devRef .tc main_v30)) (W4 m ρ c (Proc.devRef .tc main_v31)) := by
  show StableHlo.after hostOps1 (W4 m ρ c) (Proc.devRef .tc main_v43) = _
  after_results_simp <;> rfl

/-- The first aggregation: agg e (x * W1). -/
theorem W5_v43 : W5 m ρ c (Proc.devRef .tc main_v43)
    = Cert.Gcn.agg (F := Ideal) (m ((c : Thread nD τ).loc main_arg1))
        (Cert.Gcn.dense (F := Ideal) (m ((c : Thread nD τ).loc main_arg0)) (m ((c : Thread nD τ).loc main_arg2))) := by
  rw [W5_v43_of, W4_v31, W4_v3, W4_v6, W4_v30, W3_v3, W3_v6, W3_v30]
  rfl

/-- The same stretch reshapes the first bias to a row. -/
theorem W5_v44 : W5 m ρ c (Proc.devRef .tc main_v44)
    = broadcastInDim Cert.ReferenceIdeal.S1x128 ![1] Cert.ReferenceIdeal.Gen.bcast_S128_S1x128_1 (m ((c : Thread nD τ).loc main_arg3)) := by
  have h : W5 m ρ c (Proc.devRef .tc main_v44) = shapeCast S1x128 (W4 m ρ c (Proc.devRef .tc main_arg3)) shapeCasts_S128_S1x128 := by
    show StableHlo.after hostOps1 (W4 m ρ c) (Proc.devRef .tc main_v44) = _
    after_results_simp <;> rfl
  rw [h, W4_arg3]
  exact Cert.Gcn.reshape_row_eq (F := Ideal) _ _ _

/-- Region 1 leaves the first layer: max(agg e (x * W1) + b1, 0). -/
theorem W6_v45 : W6 m ρ c (Proc.devRef .tc main_v45)
    = Cert.Gcn.hidden (F := Ideal) (m ((c : Thread nD τ).loc main_arg0)) (m ((c : Thread nD τ).loc main_arg1))
        (m ((c : Thread nD τ).loc main_arg2)) (m ((c : Thread nD τ).loc main_arg3)) := by
  have h := (W6_arr m ρ c 2).trans (Cert.Gcn.Region1.final (V5 m ρ) c)
  rw [show V5 m ρ c main_v43 = _ from W5_v43 m ρ c, show V5 m ρ c main_v44 = _ from W5_v44 m ρ c] at h
  exact h

/-! ## Layer 2 -/

/-- Region 2 leaves hidden * W2. -/
theorem W7_v46 : W7 m ρ c (Proc.devRef .tc main_v46)
    = Cert.Gcn.dense (F := Ideal) (Cert.Gcn.hidden (F := Ideal) (m ((c : Thread nD τ).loc main_arg0)) (m ((c : Thread nD τ).loc main_arg1))
        (m ((c : Thread nD τ).loc main_arg2)) (m ((c : Thread nD τ).loc main_arg3))) (m ((c : Thread nD τ).loc main_arg4)) := by
  have h := (W7_arr m ρ c 2).trans (Cert.Gcn.Region2.final (V6 m ρ) c)
  rw [show V6 m ρ c main_v45 = _ from W6_v45 m ρ c, show V6 m ρ c main_arg4 = _ from W6_arg4 m ρ c] at h
  exact h

/-- The stretch after region 2 aggregates whatever region 2's output holds over the edges as they stand. -/
theorem W8_v58_of : W8 m ρ c (Proc.devRef .tc main_v58)
    = Cert.Gcn.aggOf (F := Ideal) (W7 m ρ c (Proc.devRef .tc main_v3)) (W7 m ρ c (Proc.devRef .tc main_v6))
        (W7 m ρ c (Proc.devRef .tc main_v30)) (W7 m ρ c (Proc.devRef .tc main_v46)) := by
  show StableHlo.after hostOps3 (W7 m ρ c) (Proc.devRef .tc main_v58) = _
  after_results_simp <;> rfl

/-- The same stretch reshapes the second bias to a row. -/
theorem W8_v59 : W8 m ρ c (Proc.devRef .tc main_v59)
    = broadcastInDim Cert.ReferenceIdeal.S1x128 ![1] Cert.ReferenceIdeal.Gen.bcast_S128_S1x128_1 (m ((c : Thread nD τ).loc main_arg5)) := by
  have h : W8 m ρ c (Proc.devRef .tc main_v59) = shapeCast S1x128 (W7 m ρ c (Proc.devRef .tc main_arg5)) shapeCasts_S128_S1x128 := by
    show StableHlo.after hostOps3 (W7 m ρ c) (Proc.devRef .tc main_v59) = _
    after_results_simp <;> rfl
  rw [h, W7_arg5]
  exact Cert.Gcn.reshape_row_eq (F := Ideal) _ _ _

/-- THE RESULT: region 3 leaves agg e (hidden * W2) + b2, the two-layer convolution of the inputs. -/
theorem W9_v60 : W9 m ρ c (Proc.devRef .tc main_v60)
    = Cert.Gcn.out (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  have h := (W9_arr m ρ c 2).trans (Cert.Gcn.Region3.final (V8 m ρ) c)
  rw [show V8 m ρ c main_v58 = _ from W8_v58_of m ρ c, show V8 m ρ c main_v59 = _ from W8_v59 m ρ c,
    W7_v46, W7_v3, W7_v6, W7_v30, W3_v3, W3_v6, W3_v30] at h
  exact h

end Cert.Gcn.Fold

end
-- ==== Proof.lean ====
/-
  The kernel — a two-layer graph convolution whose dense transforms and bias epilogues are four pipelined regions,
  the gathers and scatter-adds between them host operations — against the reference, which is host operations
  throughout. Over the extended reals both end holding Cert.Gcn.out of the six inputs: the reference because its
  run is the composition of its operations; the kernel because each region's twenty row blocks tile its output
  with the whole-array operation (a block of rows times W is that block of rows of the product; the bias epilogue
  is entry by entry), and the host operations between the regions are the reference's own.
  The three frames are the programs' runs with the result forgotten; the idealization rewrote nothing.
-/
import proofs.«156031_j73332271612105_1_alg».proof.Defs
import proofs.«156031_j73332271612105_1_alg».proof.Proof.Gen.Kernel
import proofs.«156031_j73332271612105_1_alg».proof.Proof.Gen.Kernel.Skeleton
import proofs.«156031_j73332271612105_1_alg».proof.Proof.Gen.Kernel.Launch
import proofs.«156031_j73332271612105_1_alg».proof.Proof.Gen.Kernel.Points
import proofs.«156031_j73332271612105_1_alg».proof.Proof.Gen.Kernel.Frame
import proofs.«156031_j73332271612105_1_alg».proof.Proof.Gen.KernelIdeal
import proofs.«156031_j73332271612105_1_alg».proof.Proof.Gen.KernelIdeal.Skeleton
import proofs.«156031_j73332271612105_1_alg».proof.Proof.Gen.KernelIdeal.Launch
import proofs.«156031_j73332271612105_1_alg».proof.Proof.Gen.KernelIdeal.Points
import proofs.«156031_j73332271612105_1_alg».proof.Proof.Gen.KernelIdeal.Frame
import proofs.«156031_j73332271612105_1_alg».proof.Proof.Gen.ReferenceIdeal
import proofs.«156031_j73332271612105_1_alg».proof.Proof.Gen.Pre_finite_inputs
import proofs.«156031_j73332271612105_1_alg».proof.Proof.Spec
import proofs.«156031_j73332271612105_1_alg».proof.Proof.RefRun
import proofs.«156031_j73332271612105_1_alg».proof.Proof.KRun
import proofs.«156031_j73332271612105_1_alg».proof.Proof.Fold
import Idealize.ShloMosaic.Adequacy
import Idealize.ShloMosaic.Init

noncomputable section

namespace Cert.Proof

open Idealize.ShloMosaic Idealize.SL.Sem

/-- The word-level kernel runs and leaves its inputs as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its inputs as launched: its run with the result forgotten. -/
theorem frame_ri : Cert.frame_ReferenceIdeal := fun m ρ _ =>
  (θ_run Cert.ReferenceIdeal.defs _ _).mono (fun _ h c => (h c).2) (Cert.Gcn.Ref.run (F := Ideal) m ρ)

/-- From memories agreeing on the inputs both programs end with Cert.Gcn.out of those inputs. -/
theorem algebraic : Cert.algebraic_KernelIdeal_ReferenceIdeal := by
  intro m ρ m' ρ' _ hagree
  refine ⟨fun c => Cert.Gcn.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.Gcn.Fold.W9_v60 m ρ c), (h c).2⟩)
      (Cert.Gcn.KRun.run_named (F := Ideal) m ρ)
  · refine (θ_run Cert.ReferenceIdeal.defs _ _).mono (fun _ h c => ⟨(h c).1.trans ?_, (h c).2⟩)
      (Cert.Gcn.Ref.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
